-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8x128 : Shape := ⟨3, ![8192, 8, 128]⟩
abbrev S1024x128x8x128 : Shape := ⟨4, ![1024, 128, 8, 128]⟩
abbrev S8192 : Shape := ⟨1, ![8192]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S1024x128x8x128 : S_.BroadcastsInDim S1024x128x8x128 (![] : Fin 0 → Fin S1024x128x8x128.rank)
  reducesTo_S1024x128x8x128_S_d0_1_2_3 : S1024x128x8x128.ReducesTo [0, 1, 2, 3] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg3 main_v16
  let main_c_6 : IVec S_ 32 := constantI S_ 32 128#32
  let main_v18 : IVec S8192 32 := broadcastInDim S8192 ![] bcast_S_S8192 main_c_6
  let main_v19 : IVec S8192 1 := cmpi .slt main_arg3 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S8192x8x128 .f32) (main_arg1 : FVec F S1024x128x8x128 .f32) (main_arg2 : IVec S8192 32) (main_arg3 : IVec S8192 32) : IVec S_ 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_c : IVec S_ 1 := constantI S_ 1 1#1
  let main_v3 : IVec S_ 1 := (fun x v => Host.reduce IntOp.andi x v reducesTo_S8192x8x128_S_d0_1_2 h_S_) main_v2 main_c
  let main_v4 : FVec F S1024x128x8x128 .f32 := Host.absf main_arg1
  let main_cst_0 : FVec F S_ .f32 := constant S_ .f32 0x7F800000#32
  let main_v5 : FVec F S1024x128x8x128 .f32 := broadcastInDim S1024x128x8x128 ![] bcast_S_S1024x128x8x128 main_cst_0
  let main_v6 : IVec S1024x128x8x128 1 := cmpf .olt main_v4 main_v5
  let main_c_1 : IVec S_ 1 := constantI S_ 1 1#1
  let main_v7 : IVec S_ 1 := (fun x v => Host.reduce IntOp.andi x v reducesTo_S1024x128x8x128_S_d0_1_2_3 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1024#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S8192x8x128 : Shape := ⟨3, ![8192, 8, 128]⟩
abbrev S1024x128x8x128 : Shape := ⟨4, ![1024, 128, 8, 128]⟩
abbrev S8192 : Shape := ⟨1, ![8192]⟩
abbrev S8192x1x8x128 : Shape := ⟨4, ![8192, 1, 8, 128]⟩
abbrev S1x1x8x128 : Shape := ⟨4, ![1, 1, 8, 128]⟩
abbrev S1 : Shape := ⟨1, ![1]⟩

abbrev nBuf : Space → Nat
  | .hbm => 4
  | .vmem => 4
  | .smem => 2
  | _ => 0

abbrev bufTy : (tb : Table) → Fin (tcTables nBuf tb) → BufTy
  | .hbm, ⟨0, _⟩ => ⟨S8192x8x128, .f32⟩
  | .hbm, ⟨1, _⟩ => ⟨S1024x128x8x128, .f32⟩
  | .hbm, ⟨2, _⟩ => ⟨S8192x1x8x128, .f32⟩
  | .hbm, ⟨3, _⟩ => ⟨S1024x128x8x128, .f32⟩
  | .local _ .vmem, ⟨0, _⟩ => ⟨S1x1x8x128, .f32⟩
  | .local _ .vmem, ⟨1, _⟩ => ⟨S1x1x8x128, .f32⟩
  | .local _ .vmem, ⟨2, _⟩ => ⟨S1x1x8x128, .f32⟩
  | .local _ .vmem, ⟨3, _⟩ => ⟨S1x1x8x128, .f32⟩
  | .local _ .smem, ⟨0, _⟩ => ⟨S8192, .i32⟩
  | .local _ .smem, ⟨1, _⟩ => ⟨S8192, .i32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8192], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (k0_off1_inb : ∀ i : grid0.Coords, ∀ a, (k0_off1 i) a + S1.size a ≤ S8192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let v2 : Index := Scalar.indexCast arg0
  let v3 : BitVec 32 := pf.at 1 (Rect.unit (s := S8192) ![v2.toNat] S1.size (k0_off1_inb i)) numel1_S1
  let c0_i32 : BitVec 32 := 0#32
  let c0_i32_0 : BitVec 32 := 0#32
  let c0_i32_1 : BitVec 32 := 0#32
  ![v1.toNat, v3.toNat, c0_i32.toNat, c0_i32_0.toNat]

abbrev stage0_0 : Fin 2 → Memref sig .tc .vmem S1x1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x8x128_S8192x1x8x128 : S8192x8x128.ShapeCasts S8192x1x8x128
  numel1_S1 : S1.numel = 1
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S1x1x8x128 : S1x1x8x128.ShapeCasts S1x1x8x128
  hrank0 : 0 < grid0.rank
  k0_off1_inb : ∀ i : grid0.Coords, ∀ a, (k0_off1 i) a + S1.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x128.size a ≤ S8192x1x8x128.size a
  hwx0_0 : ∀ i : grid0.Coords, EltTy.bits .f32 = 32 ∨ (Rect.block (s := S8192x1x8x128) S1x1x8x128.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_2 k0_off1_inb numel1_S1 pf i = cc0_transform_2 k0_off1_inb numel1_S1 pf i'

variable [Facts₀]

abbrev spec0_0 : Pipeline.WinSpec sig grid0.rank :=
  Pipeline.WinSpec.ofSpec (Memref.whole main_v0) S1x1x8x128.size reads0_0 false false 2 stage0_0 sem0_0 nbuf0_0 hstage0_0

abbrev spec0_1 : Pipeline.WinSpec sig grid0.rank :=
  Pipeline.WinSpec.ofSpec (Memref.whole main_v1) S1x1x8x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 k0_off1_inb numel1_S1 pf | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | ⟨_ + 2, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x1x8x128.size a ≤ S1024x128x8x128.size a), EltTy.bits .f32 = 32 ∨ (Rect.block (s := S1024x128x8x128) S1x1x8x128.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8192x8x128 : Shape := ⟨3, ![8192, 8, 128]⟩
abbrev S1024x128x8x128 : Shape := ⟨4, ![1024, 128, 8, 128]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 22
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S1024x128x8x128, .f32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S1024x128x8x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  scatter_S1024x128x8x128_S8192x2_S8192x8x128_12_01_01_1_wf : ScatterDims.WF S1024x128x8x128 S8192x2 S8192x8x128 [1, 2] [0, 1] [0, 1] 1

variable [Facts₀]

def scatter_S1024x128x8x128_S8192x2_S8192x8x128_12_01_01_1 : ScatterDims S1024x128x8x128 S8192x2 S8192x8x128 where
  updateWindowDims := [1, 2]
  insertedWindowDims := [0, 1]
  scatterDimsToOperandDims := [0, 1]
  indexVectorDim := 1
  wf := scatter_S1024x128x8x128_S8192x2_S8192x8x128_12_01_01_1_wf

class Facts : Prop extends Facts₀ where

variable [Facts]
-- ==== Proof.PreDecode.lean ====
/-
  The precondition read back at one token.

  Beside the finiteness of the two float arrays the precondition says, through two `jnp.all`, that every word of
  the block-index array is in `[0, 1024)` and every word of the block-offset array in `[0, 128)`, read signed. Each
  `jnp.all` is a reduction by `and` from 1 whose result is 1 only if every element is; an element is the `and` of two
  signed comparisons. A word that is non-negative when read signed has its natural value for its signed value, so
  both readings give the same in-range number. Nothing here depends on the float instance.
-/
import proofs.«132015_j35734127903093_1_alg».proof.Pre_finite_inputs
import Idealize.ShloMosaic.Lib.ReduceAll
import Idealize.ShloMosaic.Lib.ValueIdx

namespace Cert.PreDecode

open Idealize.ShloMosaic Idealize.ShloMosaic.ValueIdx Cert.Pre_finite_inputs

variable {F : FTy → Type} [FloatOps F] [Cert.Pre_finite_inputs.Facts]

/-- The scalar shape has one index. -/
instance : Subsingleton S_.Idx := ⟨fun a b => funext fun d => d.elim0⟩

/-- At every token the two index words are in range, read signed. -/
theorem slots_in_range (a0 : FVec F S8192x8x128 .f32) (a1 : FVec F S1024x128x8x128 .f32) (a2 a3 : IVec S8192 32)
    (h : fn (F := F) a0 a1 a2 a3 = fun _ => 1#1) (t : Fin 8192) :
    (0 ≤ (a2 (ix1 t)).toInt ∧ (a2 (ix1 t)).toInt < 1024) ∧ (0 ≤ (a3 (ix1 t)).toInt ∧ (a3 (ix1 t)).toInt < 128) := by
  have e := congrFun h ix0
  dsimp only [fn, fn_part1] at e
  simp only [andi] at e
  obtain ⟨e12, e3⟩ := IntOp.andi_eq_one.1 e
  obtain ⟨-, e2⟩ := IntOp.andi_eq_one.1 e12
  have b2 := Host.reduce_andi_all _ _ _ _ _ e2 (ix1 t)
  have b3 := Host.reduce_andi_all _ _ _ _ _ e3 (ix1 t)
  simp only [andi, cmpi, broadcastInDim, constantI] at b2 b3
  rw [IntOp.andi_eq_one, IntOp.cmpi_sge, IntOp.cmpi_slt] at b2 b3
  have z : (0#32 : BitVec 32).toInt = 0 := by decide
  have k1 : (1024#32 : BitVec 32).toInt = 1024 := by decide
  have k2 : (128#32 : BitVec 32).toInt = 128 := by decide
  rw [z, k1] at b2
  rw [z, k2] at b3
  exact ⟨b2, b3⟩

/-- A 32-bit word in `[0, n)` read signed is below `n` read unsigned, and the two readings agree. -/
theorem word_in_range (w : BitVec 32) (n : Nat) (h0 : 0 ≤ w.toInt) (h1 : w.toInt < (n : Int)) :
    w.toNat < n ∧ w.toInt = (w.toNat : Int) := by
  have h32 : w.toNat < 4294967296 := w.isLt
  rw [BitVec.toInt_eq_toNat_cond] at h0 h1 ⊢
  by_cases hc : 2 * w.toNat < 2 ^ 32
  · rw [if_pos hc] at h0 h1 ⊢
    exact ⟨by omega, rfl⟩
  · rw [if_neg hc] at h0
    exfalso
    have : ((2 ^ 32 : Nat) : Int) = 4294967296 := by norm_num
    omega

/-- THE SLOTS THE PRECONDITION GIVES: every token's two index words are in-range naturals `p t < 1024`, `q t < 128`,
    whether the words are read unsigned (as the kernel's index map does) or signed (as the reference's scatter does). -/
theorem slots_of_pre (a0 : FVec F S8192x8x128 .f32) (a1 : FVec F S1024x128x8x128 .f32) (a2 a3 : IVec S8192 32)
    (h : fn (F := F) a0 a1 a2 a3 = fun _ => 1#1) :
    ∃ (p : Fin 8192 → Fin 1024) (q : Fin 8192 → Fin 128),
      (∀ t, (a2 (ix1 t)).toNat = (p t).val) ∧ (∀ t, (a3 (ix1 t)).toNat = (q t).val) ∧
      (∀ t, (a2 (ix1 t)).toInt = ((p t).val : Int)) ∧ (∀ t, (a3 (ix1 t)).toInt = ((q t).val : Int)) := by
  have hr := slots_in_range a0 a1 a2 a3 h
  have h2 : ∀ t, (a2 (ix1 t)).toNat < 1024 ∧ (a2 (ix1 t)).toInt = ((a2 (ix1 t)).toNat : Int) := fun t =>
    word_in_range _ 1024 (hr t).1.1 (by have := (hr t).1.2; omega)
  have h3 : ∀ t, (a3 (ix1 t)).toNat < 128 ∧ (a3 (ix1 t)).toInt = ((a3 (ix1 t)).toNat : Int) := fun t =>
    word_in_range _ 128 (hr t).2.1 (by have := (hr t).2.2; omega)
  exact ⟨fun t => ⟨(a2 (ix1 t)).toNat, (h2 t).1⟩, fun t => ⟨(a3 (ix1 t)).toNat, (h3 t).1⟩,
    fun _ => rfl, fun _ => rfl, fun t => (h2 t).2, fun t => (h3 t).2⟩

end Cert.PreDecode
-- ==== Proof.KernelOk.lean ====
/-
  The word-level kernel's pipeline side condition from in-range slots.

  The output window's block index at grid point `t` is `(bi[t], bo[t], 0, 0)`, the two prefetched words of token `t`
  read as naturals. With the words given as in-range naturals `p t < 1024`, `q t < 128` every block of the window lies
  inside the `[1024, 128, 8, 128]` array, which is the side condition the frame of the kernel is stated under. The
  same argument, over the same printed index map, as for the idealized kernel.
-/
import proofs.«132015_j35734127903093_1_alg».proof.Proof.Gen.Kernel.Frame
import Idealize.ShloMosaic.Lib.Pipeline.Value
import Idealize.ShloMosaic.Lib.ValueIdx
import Idealize.ShloMosaic.Lib.StableHlo.Run

set_option maxRecDepth 16384

noncomputable section

namespace Cert.Kernel.Slots

open Cert.Kernel Cert.Kernel.Gen Idealize.ShloMosaic Idealize.ShloMosaic.TcCoe Idealize.SL.Sem
open Idealize.ShloMosaic.Pipeline (Dat)
open Idealize.ShloMosaic.ValueIdx Idealize.ShloMosaic.Tactic

variable {F : FTy → Type} [FloatOps F]
variable (m : (ℓ : Loc nD τ sig) → Buf (Elt F) ℓ) (ρ : Dev nD → PrngReg)

/-! ## The tables' words and the output window's block index -/

/-- The one index a scalar load at offset `k` of a table reads is index `k`. -/
theorem unit_emb (k : Fin 8192) (off : Fin 1 → Nat) (hoff : off 0 = k.val) (inb : ∀ a, off a + S1.size a ≤ S8192.size a)
    (hp : 0 < (Rect.unit (s := S8192) off S1.size inb).shape.numel) :
    (Rect.unit (s := S8192) off S1.size inb).emb (Shape.Idx.first hp) = ix1 k := by
  funext a
  apply Fin.ext
  fin_cases a
  show off 0 + 1 * (Shape.Idx.first hp (0 : Fin 1)).val = k.val
  have : (Shape.Idx.first hp (0 : Fin 1)).val = 0 := by
    have := (Shape.Idx.first hp (0 : Fin 1)).isLt
    have e : (Rect.unit (s := S8192) off S1.size inb).shape.size (0 : Fin 1) = 1 := rfl
    omega
  rw [this, hoff]; omega

/-- A grid coordinate as a token. -/
abbrev ctok (i : grid0.Coords) : Fin 8192 := ⟨(i 0).val, (i 0).isLt⟩

/-- The offset the index map loads a table at, at coordinate `i`: the coordinate. -/
theorem off0 (i : grid0.Coords) :
    (![(Scalar.indexCast (BitVec.ofNat 32 (i 0).val)).toNat] : Fin 1 → Nat) 0 = (ctok i).val := by
  have ht : (i 0).val < 8192 := (i 0).isLt
  show (BitVec.ofNat 32 (i 0).val).toNat = (i 0).val
  rw [BitVec.toNat_ofNat, Nat.mod_eq_of_lt (by omega)]

/-- THE OUTPUT WINDOW'S BLOCK INDEX at coordinate `i`, at any contents of the tables: the two words of token `i`,
    then zeros. -/
theorem index1 (pf : pre0.Contents (Elt F)) (i : grid0.Coords) :
    cc0_transform_2 k0_off1_inb numel1_S1 pf i
      = ![(pf 0 (ix1 (ctok i))).toNat, (pf 1 (ix1 (ctok i))).toNat, 0, 0] := by
  unfold cc0_transform_2
  dsimp only
  funext a
  match a with
  | ⟨0, _⟩ => exact congrArg BitVec.toNat (congrArg (pf 0) (unit_emb (ctok i) _ (off0 i) _ _))
  | ⟨1, _⟩ => exact congrArg BitVec.toNat (congrArg (pf 1) (unit_emb (ctok i) _ (off0 i) _ _))
  | ⟨2, _⟩ => rfl
  | ⟨3, _⟩ => rfl

/-- The tables the region finds are the two integer arguments as launched. -/
theorem tbl0 : tbl m 0 = m (((0 : Dev nD) : Thread nD τ).loc main_arg2) := V_main_arg2 m 0
theorem tbl1 : tbl m 1 = m (((0 : Dev nD) : Thread nD τ).loc main_arg3) := V_main_arg3 m 0

variable (p : Fin 8192 → Fin 1024) (q : Fin 8192 → Fin 128)

/-- THE PIPELINE'S SIDE CONDITION: with every token's two words in-range slots, every block of the output window lies
    inside the array. -/
theorem ok_of_slots (hp : ∀ t, (tbl m 0 (ix1 t)).toNat = (p t).val) (hq : ∀ t, (tbl m 1 (ix1 t)).toNat = (q t).val) :
    Ok m := by
  intro i
  refine ⟨fun a => ?_, Or.inl rfl⟩
  rw [index1, hp, hq]
  have h1 := (p (ctok i)).isLt
  have h2 := (q (ctok i)).isLt
  fin_cases a <;> simp [S1x1x8x128, S1024x128x8x128] <;> omega

end Cert.Kernel.Slots

end
-- ==== Proof.LibLastBlock.lean ====
/-
  An output array whose blocks may be written more than once: the LAST write-back that covers an element decides it.

  A pipelined output array is the array at entry overwritten, in point order, by the block each writing point leaves.
  When point `t` writes its block back, the block holds there the restriction of some whole-array contents `G`, the
  block covers element `i`, and no later writing point's block covers `i`, then after the run element `i` holds `G i`:
  point `t` puts it there and every later write-back leaves it alone. Nothing is asked of the EARLIER points, whose
  blocks may cover `i` too and may hold anything.
-/
import Idealize.ShloMosaic.Lib.Pipeline.Value

noncomputable section

namespace Cert.Lib.LastBlock

open Idealize.ShloMosaic Idealize.ShloMosaic.Pipeline Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

/-- After the write-backs below any `n` past `t`, an element that writing point `t`'s block covers and no later
    writing point's block covers holds what point `t` wrote there. -/
theorem arrAt_apply_of_last_below (w : Fin cfg.W) (G : Buf Val ((cfg.win w).arr.view.loc (c.tc : Thread nD τ)))
    (t : Fin cfg.N) (hf : (cfg.win w).flush t = true)
    (hG : dat.flushed w t = ((cfg.win w).blk t).view.read Val G)
    (i : ((cfg.win w).arr.view.loc (c.tc : Thread nD τ)).2.ty.Idx) (hi : i ∈ ((cfg.win w).blk t).view.set)
    (hlast : ∀ t' : Fin cfg.N, t.val < t'.val → (cfg.win w).flush t' = true → i ∉ ((cfg.win w).blk t').view.set) :
    ∀ n : Nat, t.val < n → dat.arrAt w n i = G i
  | 0, h => absurd h (Nat.not_lt_zero _)
  | n + 1, h => by
    rw [dat.arrAt_succ_apply]
    by_cases hn : n < cfg.N
    swap
    · rw [dif_neg hn]
      exact arrAt_apply_of_last_below w G t hf hG i hi hlast n (by have := t.isLt; omega)
    rw [dif_pos hn]
    by_cases hfn : (cfg.win w).flush ⟨n, hn⟩ = true
    · rw [if_pos hfn]
      by_cases htn : t.val = n
      · have e : (⟨n, hn⟩ : Fin cfg.N) = t := Fin.ext htn.symm
        rw [e, hG, View.write_read_eq_piecewise]
        exact Finset.piecewise_eq_of_mem _ _ _ (by rw [View.setOn_univ]; exact hi)
      · rw [View.write_of_not_mem _ _ _ (by rw [View.setOn_univ]; exact hlast ⟨n, hn⟩ (by show t.val < n; omega) hfn)]
        exact arrAt_apply_of_last_below w G t hf hG i hi hlast n (by omega)
    · rw [if_neg hfn]
      have htn : t.val ≠ n := fun e => hfn (by have : t = ⟨n, hn⟩ := Fin.ext e; exact this ▸ hf)
      exact arrAt_apply_of_last_below w G t hf hG i hi hlast n (by omega)

/-- THE ARRAY AFTER THE RUN at an element whose last covering write-back is point `t`'s. -/
theorem arrAt_apply_of_last (w : Fin cfg.W) (G : Buf Val ((cfg.win w).arr.view.loc (c.tc : Thread nD τ)))
    (t : Fin cfg.N) (hf : (cfg.win w).flush t = true)
    (hG : dat.flushed w t = ((cfg.win w).blk t).view.read Val G)
    (i : ((cfg.win w).arr.view.loc (c.tc : Thread nD τ)).2.ty.Idx) (hi : i ∈ ((cfg.win w).blk t).view.set)
    (hlast : ∀ t' : Fin cfg.N, t.val < t'.val → (cfg.win w).flush t' = true → i ∉ ((cfg.win w).blk t').view.set) :
    dat.arrAt w cfg.N i = G i :=
  arrAt_apply_of_last_below dat w G t hf hG i hi hlast cfg.N t.isLt

end Cert.Lib.LastBlock

end
-- ==== Proof.KernelIdealSlots.lean ====
/-
  The scatter kernel's output array after the run, element by element.

  Grid point `t` fetches tile `t` of the `[8192, 1, 8, 128]` view of the input and copies it to the output's staging
  buffer; the output window's block index at `t` is `(bi[t], bo[t], 0, 0)`, the two prefetched words of token `t`, so
  the block written back is slot `(bi[t], bo[t])` of the `[1024, 128, 8, 128]` array, which started as a copy of the cache.
  The slots are given as in-range naturals `p t`, `q t` that the table words hold: then every block lies inside the
  array (the pipeline's side condition), and element `(a, b, h, e)` of the array after the run is element `(h, e)` of
  the LAST token's tile whose slot is `(a, b)` — that point writes its block back, since the next point's block index
  differs or there is no next point, and no later write-back covers the element —, and the cache's own element when
  no token has that slot.
-/
import proofs.«132015_j35734127903093_1_alg».proof.Proof.Gen.KernelIdeal.Frame
import proofs.«132015_j35734127903093_1_alg».proof.Proof.LibLastBlock
import Idealize.ShloMosaic.Lib.Pipeline.Value
import Idealize.ShloMosaic.Lib.ValueIdx
import Idealize.ShloMosaic.Lib.StableHlo.Run

set_option maxRecDepth 16384

noncomputable section

namespace Cert.KernelIdeal.Slots

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.Tactic

variable {F : FTy → Type} [FloatOps F]
variable (m : (ℓ : Loc nD τ sig) → Buf (Elt F) ℓ) (ρ : Dev nD → PrngReg)

/-! ## The tables' words and the output window's block index -/

/-- The one index a scalar load at offset `k` of a table reads is index `k`. -/
theorem unit_emb (k : Fin 8192) (off : Fin 1 → Nat) (hoff : off 0 = k.val) (inb : ∀ a, off a + S1.size a ≤ S8192.size a)
    (hp : 0 < (Rect.unit (s := S8192) off S1.size inb).shape.numel) :
    (Rect.unit (s := S8192) off S1.size inb).emb (Shape.Idx.first hp) = ix1 k := by
  funext a
  apply Fin.ext
  fin_cases a
  show off 0 + 1 * (Shape.Idx.first hp (0 : Fin 1)).val = k.val
  have : (Shape.Idx.first hp (0 : Fin 1)).val = 0 := by
    have := (Shape.Idx.first hp (0 : Fin 1)).isLt
    have e : (Rect.unit (s := S8192) off S1.size inb).shape.size (0 : Fin 1) = 1 := rfl
    omega
  rw [this, hoff]; omega

/-- A grid coordinate as a token. -/
abbrev ctok (i : grid0.Coords) : Fin 8192 := ⟨(i 0).val, (i 0).isLt⟩

/-- The offset the index map loads a table at, at coordinate `i`: the coordinate. -/
theorem off0 (i : grid0.Coords) :
    (![(Scalar.indexCast (BitVec.ofNat 32 (i 0).val)).toNat] : Fin 1 → Nat) 0 = (ctok i).val := by
  have ht : (i 0).val < 8192 := (i 0).isLt
  show (BitVec.ofNat 32 (i 0).val).toNat = (i 0).val
  rw [BitVec.toNat_ofNat, Nat.mod_eq_of_lt (by omega)]

/-- THE OUTPUT WINDOW'S BLOCK INDEX at coordinate `i`, at any contents of the tables: the two words of token `i`,
    then zeros. -/
theorem index1 (pf : pre0.Contents (Elt F)) (i : grid0.Coords) :
    cc0_transform_2 k0_off1_inb numel1_S1 pf i
      = ![(pf 0 (ix1 (ctok i))).toNat, (pf 1 (ix1 (ctok i))).toNat, 0, 0] := by
  unfold cc0_transform_2
  dsimp only
  funext a
  match a with
  | ⟨0, _⟩ => exact congrArg BitVec.toNat (congrArg (pf 0) (unit_emb (ctok i) _ (off0 i) _ _))
  | ⟨1, _⟩ => exact congrArg BitVec.toNat (congrArg (pf 1) (unit_emb (ctok i) _ (off0 i) _ _))
  | ⟨2, _⟩ => rfl
  | ⟨3, _⟩ => rfl

/-- The tables the region finds are the two integer arguments as launched. -/
theorem tbl0 : tbl m 0 = m (((0 : Dev nD) : Thread nD τ).loc main_arg2) := V_main_arg2 m 0
theorem tbl1 : tbl m 1 = m (((0 : Dev nD) : Thread nD τ).loc main_arg3) := V_main_arg3 m 0

variable (p : Fin 8192 → Fin 1024) (q : Fin 8192 → Fin 128)

/-- THE PIPELINE'S SIDE CONDITION: with every token's two words in-range slots, every block of the output window lies
    inside the array. -/
theorem ok_of_slots (hp : ∀ t, (tbl m 0 (ix1 t)).toNat = (p t).val) (hq : ∀ t, (tbl m 1 (ix1 t)).toNat = (q t).val) :
    Ok m := by
  intro i
  refine ⟨fun a => ?_, Or.inl rfl⟩
  rw [index1, hp, hq]
  have h1 := (p (ctok i)).isLt
  have h2 := (q (ctok i)).isLt
  fin_cases a <;> simp [S1x1x8x128, S1024x128x8x128] <;> omega

/-! ## What a point writes back -/

theorem hz4 : (![0, 0, 0, 0] : Fin 4 → Nat) = fun _ => 0 := funext fun a => by fin_cases a <;> rfl

/-- The body leaves in the output's staging buffer the block it loaded from the input's. -/
theorem out_eq (c : Dev nD) (i : grid0.Coords) (arg3 : Memref sig .tc .vmem S1x1x8x128 .f32) (harg3 : arg3.IsWhole)
    (arg5 : Memref sig .tc .vmem S1x1x8x128 .f32) (harg5 : arg5.IsWhole)
    (x0 : Vec F S1x1x8x128 .f32) (xt0 : TbBuf0 (F := F) c tbM0_0) (xt1 : TbBuf0 (F := F) c tbM0_1) :
    out0_A_1 c i arg3 harg3 arg5 harg5 x0 xt0 xt1 = x0 := by
  unfold out0_A_1
  rw [View.read_writes_eq_canon _ _ _ (cover0_A_1 c i arg3 harg3 arg5 harg5 x0 xt0 xt1)]
  unfold kernelRun0_A
  dsimp only
  rw [View.canon_unit_zero hz4]
  simp only [View.readAt_eq_ld, harg3.read_unread, View.ld_unit_zero (S := S1x1x8x128) hz4]
  unfold k0_pay1
  exact shapeCast_self _ _

/-- The arrays the region finds: the input re-laid with a unit axis, and a copy of the cache. -/
theorem V_v0 (c : Dev nD) : (V m c main_v0 : S8192x1x8x128.Idx → Elt F .f32)
    = shapeCast S8192x1x8x128 (m ((c : Thread nD τ).loc main_arg0)) shapeCasts_S8192x8x128_S8192x1x8x128 := by
  dsimp only [V, hostOps0]; after_results; rfl

theorem V_v1 (c : Dev nD) : (V m c main_v1 : S1024x128x8x128.Idx → Elt F .f32) = m ((c : Thread nD τ).loc main_arg1) := by
  dsimp only [V, hostOps0]; after_results; rfl

/-- The re-laid input read at an index: the unit axis dropped. -/
theorem relaid_apply {α : Type} (x : S8192x8x128.Idx → α) (j : S8192x1x8x128.Idx) (k : S8192x8x128.Idx)
    (h0 : (k 0).val = (j 0).val) (h1 : (k 1).val = (j 2).val) (h2 : (k 2).val = (j 3).val) :
    shapeCast S8192x1x8x128 x shapeCasts_S8192x8x128_S8192x1x8x128 j = x k :=
  shapeCast_apply x _ j k (by
    rw [Shape.rowMajor_val_three, Shape.rowMajor_val_four]
    have hj : (j 1).val < 1 := (j 1).isLt
    show ((k 0).val * 8 + (k 1).val) * 128 + (k 2).val = (((j 0).val * 1 + (j 1).val) * 8 + (j 2).val) * 128 + (j 3).val
    omega)

/-- The grid has one axis: a point's coordinate is the point. -/
theorem coord0 (t : Fin grid0.N) : (grid0.coords t 0).val = t.val := by
  have ht : t.val < 8192 := lt_of_lt_of_eq t.isLt N_0
  show t.val / grid0.stride 0 % 8192 = t.val
  have hs : grid0.stride 0 = 1 := by decide
  rw [hs, Nat.div_one, Nat.mod_eq_of_lt ht]

/-- The point as a token. -/
abbrev tok (t : Fin grid0.N) : Fin 8192 := ⟨t.val, lt_of_lt_of_eq t.isLt N_0⟩

theorem ctok_coords (t : Fin grid0.N) : ctok (grid0.coords t) = tok t := Fin.ext (coord0 t)

/-- The input window's block index at point `t` is `(t, 0, 0, 0)`. -/
theorem index0 (t : Fin grid0.N) : cc0_transform_0 (grid0.coords t) = ![t.val, 0, 0, 0] := by
  have ht : t.val < 8192 := lt_of_lt_of_eq t.isLt N_0
  funext a
  match a with
  | ⟨0, _⟩ =>
    show (BitVec.ofNat 32 (grid0.coords t 0).val).toNat = t.val
    rw [BitVec.toNat_ofNat, coord0, Nat.mod_eq_of_lt (by omega)]
  | ⟨1, _⟩ => rfl
  | ⟨2, _⟩ => rfl
  | ⟨3, _⟩ => rfl

/-- Whole-array contents whose every slot holds tile `t` of the input: what point `t` writes back is its block of it. -/
def tile (c : Dev nD) (t : Fin 8192) : S1024x128x8x128.Idx → Elt F .f32 :=
  fun i => m ((c : Thread nD τ).loc main_arg0) (ix3 t (i 2) (i 3))

/-- WHAT POINT `t` WRITES BACK: the block, at its slot, of the contents holding tile `t` everywhere. -/
theorem flushed_eq (hO : Ok m) (c : Dev nD) (t : Fin (cfgM m hO).N) :
    (dats m hO 0 c).flushed 1 t = (((cfgM m hO).win 1).blk t).view.read (Elt F) (tile m c (tok t)) := by
  show ((cfgM m hO).win 1).cut (grid0.coords t) ((dats m hO 0 c).after 1 t) = _
  rw [after0_1]
  unfold outsAt0
  funext y
  have hout := congrFun (out_eq c (grid0.coords t) (ms0_0 m hO t) (hs0_0 m hO t) (ms0_1 m hO t) (hs0_1 m hO t)
    (iblk m hO c 0 t) (tbl m 0) (tbl m 1)) y
  refine Eq.trans (show _ = iblk m hO c 0 t y from hout) ?_
  show V m c main_v0 ((((cfgM m hO).win 0).blk t).view.emb y) = tile m c (tok t) ((((cfgM m hO).win 1).blk t).view.emb y)
  unfold tile
  refine (congrFun (V_v0 m c) ((((cfgM m hO).win 0).blk t).view.emb y)).trans ?_
  have y0 : (y (0 : Fin 4)).val < 1 := (y (0 : Fin 4)).isLt
  have c0 := congrFun (index0 t) 0
  have c2 := congrFun (index0 t) 2
  have c3 := congrFun (index0 t) 3
  have i2 : cc0_transform_2 k0_off1_inb numel1_S1 (tbl m) (grid0.coords t) 2 = 0 := by rw [index1]; rfl
  have i3 : cc0_transform_2 k0_off1_inb numel1_S1 (tbl m) (grid0.coords t) 3 = 0 := by rw [index1]; rfl
  refine relaid_apply _ _ (ix3 (tok t) ((((cfgM m hO).win 1).blk t).view.emb y (2 : Fin 4))
    ((((cfgM m hO).win 1).blk t).view.emb y (3 : Fin 4))) ?_ ?_ ?_
  · show t.val = cc0_transform_0 (grid0.coords t) 0 * 1 + 1 * (y (0 : Fin 4)).val
    rw [c0]; show t.val = t.val * 1 + 1 * (y (0 : Fin 4)).val; omega
  · show cc0_transform_2 k0_off1_inb numel1_S1 (tbl m) (grid0.coords t) 2 * 8 + 1 * (y (2 : Fin 4)).val
      = cc0_transform_0 (grid0.coords t) 2 * 8 + 1 * (y (2 : Fin 4)).val
    rw [i2, c2]; rfl
  · show cc0_transform_2 k0_off1_inb numel1_S1 (tbl m) (grid0.coords t) 3 * 128 + 1 * (y (3 : Fin 4)).val
      = cc0_transform_0 (grid0.coords t) 3 * 128 + 1 * (y (3 : Fin 4)).val
    rw [i3, c3]; rfl

/-! ## Which elements a point's block covers, and which points write back -/

/-- An element is in point `t`'s block iff each coordinate is in the block's range on its axis. -/
theorem mem_blk (hO : Ok m) (t : Fin (cfgM m hO).N) (i : S1024x128x8x128.Idx) :
    i ∈ (((cfgM m hO).win 1).blk t).view.set ↔ ∀ a : Fin 4,
      cc0_transform_2 k0_off1_inb numel1_S1 (tbl m) (grid0.coords t) a * S1x1x8x128.size a ≤ (i a).val
      ∧ (i a).val < cc0_transform_2 k0_off1_inb numel1_S1 (tbl m) (grid0.coords t) a * S1x1x8x128.size a
          + S1x1x8x128.size a := by
  have h1 := congrArg (fun S => i ∈ S) (View.set_slice_whole main_v1 (((cfgM m hO).win 1).rect t))
  exact (Eq.to_iff h1).trans Rect.mem_set_unit

variable (hp : ∀ t, (tbl m 0 (ix1 t)).toNat = (p t).val) (hq : ∀ t, (tbl m 1 (ix1 t)).toNat = (q t).val)
include hp hq

/-- Element `(a, b, h, e)` is in point `t`'s block iff token `t`'s slot is `(a, b)`. -/
theorem mem_blk_slot (hO : Ok m) (t : Fin (cfgM m hO).N) (a : Fin 1024) (b : Fin 128) (h : Fin 8) (e : Fin 128) :
    (ix4 a b h e : S1024x128x8x128.Idx) ∈ (((cfgM m hO).win 1).blk t).view.set ↔ p (tok t) = a ∧ q (tok t) = b := by
  rw [mem_blk, index1, ctok_coords, hp, hq]
  constructor
  · intro H
    have H0 : (p (tok t)).val * 1 ≤ a.val ∧ a.val < (p (tok t)).val * 1 + 1 := H 0
    have H1 : (q (tok t)).val * 1 ≤ b.val ∧ b.val < (q (tok t)).val * 1 + 1 := H 1
    exact ⟨Fin.ext (by omega), Fin.ext (by omega)⟩
  · rintro ⟨rfl, rfl⟩ a'
    have hh := h.isLt
    have he := e.isLt
    match a' with
    | ⟨0, _⟩ => show (p (tok t)).val * 1 ≤ (p (tok t)).val ∧ (p (tok t)).val < (p (tok t)).val * 1 + 1; omega
    | ⟨1, _⟩ => show (q (tok t)).val * 1 ≤ (q (tok t)).val ∧ (q (tok t)).val < (q (tok t)).val * 1 + 1; omega
    | ⟨2, _⟩ => show 0 * 8 ≤ h.val ∧ h.val < 0 * 8 + 8; omega
    | ⟨3, _⟩ => show 0 * 128 ≤ e.val ∧ e.val < 0 * 128 + 128; omega

/-- A point after which no point has its slot again writes its block back: it is the last point, or the next
    point's block index differs. -/
theorem flush_of_last (hO : Ok m) (t : Fin (cfgM m hO).N)
    (hlast : ∀ t' : Fin (cfgM m hO).N, t.val < t'.val → ¬ (p (tok t') = p (tok t) ∧ q (tok t') = q (tok t))) :
    ((cfgM m hO).win 1).flush t = true := by
  simp only [Pipeline.Window.flush, Bool.and_eq_true, Bool.or_eq_true, decide_eq_true_eq]
  refine ⟨rfl, ?_⟩
  by_cases hN : t.val + 1 = grid0.N
  · exact Or.inl hN
  · have hlt : t.val + 1 < grid0.N := by
      have := t.isLt
      have hNN : (cfgM m hO).N = grid0.N := rfl
      omega
    refine Or.inr ⟨hlt, fun heq => ?_⟩
    have heq' : cc0_transform_2 k0_off1_inb numel1_S1 (tbl m) (grid0.coords ⟨t.val + 1, hlt⟩)
        = cc0_transform_2 k0_off1_inb numel1_S1 (tbl m) (grid0.coords t) := heq
    rw [index1, index1, ctok_coords, ctok_coords, hp, hq, hp, hq] at heq'
    exact hlast ⟨t.val + 1, hlt⟩ (Nat.lt_succ_self _) ⟨Fin.ext (congrFun heq' 0), Fin.ext (congrFun heq' 1)⟩

/-! ## The array after the run -/

/-- Where some token has the slot: the last such token's tile. -/
theorem final_of_last (hO : Ok m) (c : Dev nD) (a : Fin 1024) (b : Fin 128) (h : Fin 8) (e : Fin 128) (t : Fin 8192)
    (ht : p t = a ∧ q t = b) (hlast : ∀ t', t < t' → ¬ (p t' = a ∧ q t' = b)) :
    (dats m hO 0 c).arrAt 1 (cfgM m hO).N (ix4 a b h e) = m ((c : Thread nD τ).loc main_arg0) (ix3 t h e) := by
  have hN : t.val < grid0.N := lt_of_lt_of_eq t.isLt N_0.symm
  have htok : tok ⟨t.val, hN⟩ = t := Fin.ext rfl
  exact Cert.Lib.LastBlock.arrAt_apply_of_last (dats m hO 0 c) 1 (tile m c t) ⟨t.val, hN⟩
    (flush_of_last m p q hp hq hO ⟨t.val, hN⟩ (fun t' hlt hs => hlast (tok t') hlt (by
      rw [htok, ht.1, ht.2] at hs; exact hs)))
    (by rw [flushed_eq, htok])
    (ix4 a b h e) ((mem_blk_slot m p q hp hq hO ⟨t.val, hN⟩ a b h e).mpr (by rw [htok]; exact ht))
    (fun t' hlt _ hi => hlast (tok t') hlt ((mem_blk_slot m p q hp hq hO t' a b h e).mp hi))

/-- Where no token has the slot: the cache's element. -/
theorem final_of_none (hO : Ok m) (c : Dev nD) (a : Fin 1024) (b : Fin 128) (h : Fin 8) (e : Fin 128)
    (hno : ∀ t, ¬ (p t = a ∧ q t = b)) :
    (dats m hO 0 c).arrAt 1 (cfgM m hO).N (ix4 a b h e) = m ((c : Thread nD τ).loc main_arg1) (ix4 a b h e) := by
  rw [(dats m hO 0 c).arrAt_apply_of_forall_not_mem 1 (cfgM m hO).N (ix4 a b h e)
    (fun t' _ _ hi => hno (tok t') ((mem_blk_slot m p q hp hq hO t' a b h e).mp hi)), A_eq]
  exact congrFun (V_v1 m c) (ix4 a b h e)

omit hp hq

/-! ## The run, read -/

/-- The frame run with the output array after the run named, the arguments unchanged. -/
theorem run (hO : Ok m) : θ_run defs (onTc (τ := τ) (main (F := F))) ⟨m, fun _ => 0, ρ⟩ fun r => ∀ c : Dev nD,
      r.2.mem ((c : Thread nD τ).loc main_v1) = (dats m hO 0 c).arrAt 1 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 1,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.Slots

end
-- ==== Proof.LibScatterSet.lean ====
/-
  A scatter that SETS (its body returns the update) read at one element of the result.

  The host scatter is a left fold over the update indices in row-major order; a step either
  replaces the one element its update lands on or, when the update falls outside, changes nothing.
  Read at a fixed element `i` the fold therefore keeps the operand's element when no update lands
  on `i`, and otherwise ends at the update that lands on `i` LAST in row-major order: every later
  step leaves `i` alone, every earlier one is overwritten.
-/
import Idealize.ShloMosaic.PureOps
import Mathlib.Data.List.Sort

namespace Cert.Lib.ScatterSet

open Idealize.ShloMosaic

section Fold

variable {κ ι α : Type}

/-- A left fold of steps none of which touches element `i` (`hmiss`: a step that does not hit keeps it)
    leaves element `i` as it was. -/
theorem foldl_apply_of_forall_miss (step : (ι → α) → κ → ι → α) (i : ι) (hit : κ → Prop)
    (hmiss : ∀ r n, ¬ hit n → step r n i = r i) :
    ∀ (l : List κ) (x : ι → α), (∀ n ∈ l, ¬ hit n) → l.foldl step x i = x i
  | [], _, _ => rfl
  | a :: l, x, h => by
    rw [List.foldl_cons,
      foldl_apply_of_forall_miss step i hit hmiss l _ (fun n hn => h n (List.mem_cons_of_mem _ hn)),
      hmiss _ _ (h a List.mem_cons_self)]

/-- Over a strictly increasing list, when step `n` hits element `i` (leaving `v n` there) and no later step
    of the list does, the fold ends with `v n` at `i`. -/
theorem foldl_apply_of_last [LT κ] (step : (ι → α) → κ → ι → α) (i : ι) (hit : κ → Prop) (v : κ → α)
    (hmiss : ∀ r n, ¬ hit n → step r n i = r i) (hhit : ∀ r n, hit n → step r n i = v n) :
    ∀ (l : List κ) (x : ι → α), l.Pairwise (· < ·) → ∀ n ∈ l, hit n → (∀ n' ∈ l, n < n' → ¬ hit n') →
      l.foldl step x i = v n
  | [], _, _, _, hn, _, _ => absurd hn List.not_mem_nil
  | a :: l, x, hp, n, hn, hh, hl => by
    rw [List.foldl_cons]
    rcases List.mem_cons.mp hn with rfl | hn'
    · rw [foldl_apply_of_forall_miss step i hit hmiss l _
        (fun n' hn' => hl n' (List.mem_cons_of_mem _ hn') (List.rel_of_pairwise_cons hp hn')), hhit _ _ hh]
    · exact foldl_apply_of_last step i hit v hmiss hhit l _ (List.Pairwise.of_cons hp) n hn' hh
        (fun n' hn'' => hl n' (List.mem_cons_of_mem _ hn''))

end Fold

variable {s si u : Shape} {w : Nat} {α : Type}

/-- No update lands on `i`: the scatter leaves the operand's element there. -/
theorem scatter_apply_of_forall_ne (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  refine foldl_apply_of_forall_miss _ i (fun n => d.resultIdx? (u.rowMajor.symm n) idx = some i) ?_ _ x
    (fun n _ => h _)
  intro r n hn
  dsimp only
  generalize d.resultIdx? (u.rowMajor.symm n) idx = o at hn ⊢
  cases o with
  | none => rfl
  | some i₀ => exact if_neg (fun e' => hn (congrArg some e'.symm))

/-- Update `j` lands on `i` and no update later in row-major order does: the scatter leaves update `j` there. -/
theorem scatter_apply_of_last (d : ScatterDims s si u) (x : s.Idx → α) (idx : IVec si w) (upd : u.Idx → α)
    (i : s.Idx) (j : u.Idx) (hj : d.resultIdx? j idx = some i)
    (hl : ∀ j' : u.Idx, u.rowMajor j < u.rowMajor j' → d.resultIdx? j' idx ≠ some i) :
    Host.scatter d (fun _ b => b) x idx upd i = upd j := by
  unfold Host.scatter
  have key := foldl_apply_of_last
    (fun (r : s.Idx → α) (n : Fin u.numel) =>
      match d.resultIdx? (u.rowMajor.symm n) idx with
      | some i => fun i' => if i' = i then (fun _ b => b) (r i) (upd (u.rowMajor.symm n)) else r i'
      | none => r)
    i (fun n => d.resultIdx? (u.rowMajor.symm n) idx = some i) (fun n => upd (u.rowMajor.symm n))
    (by
      intro r n hn
      dsimp only
      generalize d.resultIdx? (u.rowMajor.symm n) idx = o at hn ⊢
      cases o with
      | none => rfl
      | some i₀ => exact if_neg (fun e' => hn (congrArg some e'.symm)))
    (by
      intro r n hn
      dsimp only
      generalize d.resultIdx? (u.rowMajor.symm n) idx = o at hn ⊢
      cases o with
      | none => exact absurd hn (by simp)
      | some i₀ =>
        obtain rfl : i₀ = i := Option.some.inj hn
        exact if_pos rfl)
    (List.finRange u.numel) x (List.sortedLT_finRange _).pairwise (u.rowMajor j) (List.mem_finRange _)
    (by rw [Equiv.symm_apply_apply]; exact hj)
    (fun n' _ hlt => hl _ (by rw [Equiv.apply_symm_apply]; exact hlt))
  rw [Equiv.symm_apply_apply] at key
  exact key

end Cert.Lib.ScatterSet
-- ==== Proof.LibScatterSlots.lean ====
/-
  The scatter `x.at[p, q].set(v)` of whole `[H, D]` tiles into the slots of an `[A, B, H, D]` array, read at an element.

  The operand is `[A, B, H, D]`, the scatter indices an `[E, 2]` array whose row `t` names the slot `(p t, q t)` of
  update tile `t`, the updates `[E, H, D]`; the dimension numbers (update window axes 1 and 2, inserted window axes 0
  and 1, the two index components mapped to operand axes 0 and 1, the index vector along axis 1) are what such an
  assignment lowers to. Update element `(t, h, e)` lands on operand element `(p t, q t, h, e)`. So element
  `(a, b, h, e)` of the result is element `(h, e)` of the LAST tile `t` whose slot is `(a, b)` (later tiles follow
  earlier ones in row-major order of the updates), and the operand's own element when no tile has that slot.
  The slots are given as in-range naturals the index words hold when read signed.
-/
import Idealize.ShloMosaic.PureOps
import Idealize.ShloMosaic.Lib.ValueIdx
import proofs.«132015_j35734127903093_1_alg».proof.Proof.LibScatterSet

namespace Cert.Lib.ScatterSlots

open Idealize.ShloMosaic Idealize.ShloMosaic.ValueIdx

/-- The operand's, the scatter indices' and the updates' shapes. -/
abbrev SOp (A B H D : Nat) : Shape := ⟨4, ![A, B, H, D]⟩
abbrev SIx (E : Nat) : Shape := ⟨2, ![E, 2]⟩
abbrev SUp (E H D : Nat) : Shape := ⟨3, ![E, H, D]⟩

/-- The dimension numbers of `x.at[p, q].set(v)`, `x : [A, B, H, D]`, `p q : [E]`, `v : [E, H, D]`. -/
def slotDims (A B H D E : Nat) (wf : ScatterDims.WF (SOp A B H D) (SIx E) (SUp E H D) [1, 2] [0, 1] [0, 1] 1) :
    ScatterDims (SOp A B H D) (SIx E) (SUp E H D) where
  updateWindowDims := [1, 2]
  insertedWindowDims := [0, 1]
  scatterDimsToOperandDims := [0, 1]
  indexVectorDim := 1
  wf := wf

variable {A B H D E w : Nat} {α : Type}
variable (wf : ScatterDims.WF (SOp A B H D) (SIx E) (SUp E H D) [1, 2] [0, 1] [0, 1] 1)

/-- The window starts of update element `(t, h, e)`, axis by axis: the two index words of row `t`, read signed,
    then zeros. -/
theorem start0 (t : Fin E) (h : Fin H) (e : Fin D) (idx : IVec (SIx E) w) :
    (slotDims A B H D E wf).start (ix3 t h e) idx 0 = (idx (ix2 t 0)).toInt := by
  have hm : (0 : Fin 4) ∈ (slotDims A B H D E wf).scatterDimsToOperandDims := by
    show (0 : Fin 4) ∈ ([0, 1] : List (Fin 4)); decide
  unfold ScatterDims.start
  rw [dif_pos hm]
  have hsi : (slotDims A B H D E wf).siIdx (ix3 t h e)
      ⟨List.idxOf (0 : Fin 4) (slotDims A B H D E wf).scatterDimsToOperandDims, List.idxOf_lt_length_iff.2 hm⟩
      = ix2 t 0 := by
    funext b; refine Fin.ext ?_
    match b with
    | ⟨0, _⟩ => rfl
    | ⟨1, _⟩ => rfl
  rw [hsi]

theorem start1 (t : Fin E) (h : Fin H) (e : Fin D) (idx : IVec (SIx E) w) :
    (slotDims A B H D E wf).start (ix3 t h e) idx 1 = (idx (ix2 t 1)).toInt := by
  have hm : (1 : Fin 4) ∈ (slotDims A B H D E wf).scatterDimsToOperandDims := by
    show (1 : Fin 4) ∈ ([0, 1] : List (Fin 4)); decide
  unfold ScatterDims.start
  rw [dif_pos hm]
  have hsi : (slotDims A B H D E wf).siIdx (ix3 t h e)
      ⟨List.idxOf (1 : Fin 4) (slotDims A B H D E wf).scatterDimsToOperandDims, List.idxOf_lt_length_iff.2 hm⟩
      = ix2 t 1 := by
    funext b; refine Fin.ext ?_
    match b with
    | ⟨0, _⟩ => rfl
    | ⟨1, _⟩ => rfl
  rw [hsi]

theorem start2 (j : (SUp E H D).Idx) (idx : IVec (SIx E) w) : (slotDims A B H D E wf).start j idx 2 = 0 := by
  have hm : (2 : Fin 4) ∉ (slotDims A B H D E wf).scatterDimsToOperandDims := by
    show (2 : Fin 4) ∉ ([0, 1] : List (Fin 4)); decide
  unfold ScatterDims.start
  rw [dif_neg hm]

theorem start3 (j : (SUp E H D).Idx) (idx : IVec (SIx E) w) : (slotDims A B H D E wf).start j idx 3 = 0 := by
  have hm : (3 : Fin 4) ∉ (slotDims A B H D E wf).scatterDimsToOperandDims := by
    show (3 : Fin 4) ∉ ([0, 1] : List (Fin 4)); decide
  unfold ScatterDims.start
  rw [dif_neg hm]

/-- The window coordinates, axis by axis: zeros on the slot axes, then the update's tile coordinates. -/
theorem window0 (j : (SUp E H D).Idx) : (slotDims A B H D E wf).window j 0 = 0 := by
  have hm : (0 : Fin 4) ∉ (slotDims A B H D E wf).sKept := by
    show (0 : Fin 4) ∉ ((List.finRange 4).filter (· ∉ ([0, 1] : List (Fin 4)))); decide
  unfold ScatterDims.window
  rw [dif_neg hm]

theorem window1 (j : (SUp E H D).Idx) : (slotDims A B H D E wf).window j 1 = 0 := by
  have hm : (1 : Fin 4) ∉ (slotDims A B H D E wf).sKept := by
    show (1 : Fin 4) ∉ ((List.finRange 4).filter (· ∉ ([0, 1] : List (Fin 4)))); decide
  unfold ScatterDims.window
  rw [dif_neg hm]

theorem window2 (t : Fin E) (h : Fin H) (e : Fin D) : (slotDims A B H D E wf).window (ix3 t h e) 2 = h.val := by
  have hm : (2 : Fin 4) ∈ (slotDims A B H D E wf).sKept := by
    show (2 : Fin 4) ∈ ((List.finRange 4).filter (· ∉ ([0, 1] : List (Fin 4)))); decide
  unfold ScatterDims.window
  rw [dif_pos hm]
  rfl

theorem window3 (t : Fin E) (h : Fin H) (e : Fin D) : (slotDims A B H D E wf).window (ix3 t h e) 3 = e.val := by
  have hm : (3 : Fin 4) ∈ (slotDims A B H D E wf).sKept := by
    show (3 : Fin 4) ∈ ((List.finRange 4).filter (· ∉ ([0, 1] : List (Fin 4)))); decide
  unfold ScatterDims.window
  rw [dif_pos hm]
  rfl

/-- WHERE AN UPDATE LANDS: when row `t` of the indices holds the in-range slot `(p, q)`, update element `(t, h, e)`
    lands on operand element `(p, q, h, e)`. -/
theorem resultIdx_eq (t : Fin E) (h : Fin H) (e : Fin D) (idx : IVec (SIx E) w) (p : Fin A) (q : Fin B)
    (hp : (idx (ix2 t 0)).toInt = (p.val : Int)) (hq : (idx (ix2 t 1)).toInt = (q.val : Int)) :
    (slotDims A B H D E wf).resultIdx? (ix3 t h e) idx = some (ix4 p q h e) := by
  have h1 : h.val < H := h.isLt
  have h2 : e.val < D := e.isLt
  have hA : p.val < A := p.isLt
  have hB : q.val < B := q.isLt
  unfold ScatterDims.resultIdx?
  have hall : ∀ a, 0 ≤ (slotDims A B H D E wf).start (ix3 t h e) idx a + ((slotDims A B H D E wf).window (ix3 t h e) a : Int)
      ∧ (slotDims A B H D E wf).start (ix3 t h e) idx a + ((slotDims A B H D E wf).window (ix3 t h e) a : Int)
        < ((SOp A B H D).size a : Int) := by
    intro a
    match a with
    | ⟨0, _⟩ =>
      show 0 ≤ (slotDims A B H D E wf).start (ix3 t h e) idx 0 + ((slotDims A B H D E wf).window (ix3 t h e) 0 : Int) ∧
        (slotDims A B H D E wf).start (ix3 t h e) idx 0 + ((slotDims A B H D E wf).window (ix3 t h e) 0 : Int) < (A : Int)
      rw [start0, window0, hp]; omega
    | ⟨1, _⟩ =>
      show 0 ≤ (slotDims A B H D E wf).start (ix3 t h e) idx 1 + ((slotDims A B H D E wf).window (ix3 t h e) 1 : Int) ∧
        (slotDims A B H D E wf).start (ix3 t h e) idx 1 + ((slotDims A B H D E wf).window (ix3 t h e) 1 : Int) < (B : Int)
      rw [start1, window1, hq]; omega
    | ⟨2, _⟩ =>
      show 0 ≤ (slotDims A B H D E wf).start (ix3 t h e) idx 2 + ((slotDims A B H D E wf).window (ix3 t h e) 2 : Int) ∧
        (slotDims A B H D E wf).start (ix3 t h e) idx 2 + ((slotDims A B H D E wf).window (ix3 t h e) 2 : Int) < (H : Int)
      rw [start2, window2]; omega
    | ⟨3, _⟩ =>
      show 0 ≤ (slotDims A B H D E wf).start (ix3 t h e) idx 3 + ((slotDims A B H D E wf).window (ix3 t h e) 3 : Int) ∧
        (slotDims A B H D E wf).start (ix3 t h e) idx 3 + ((slotDims A B H D E wf).window (ix3 t h e) 3 : Int) < (D : Int)
      rw [start3, window3]; omega
  rw [dif_pos hall]
  refine congrArg some (funext fun a => Fin.ext ?_)
  match a with
  | ⟨0, _⟩ =>
    show ((slotDims A B H D E wf).start (ix3 t h e) idx 0 + ((slotDims A B H D E wf).window (ix3 t h e) 0 : Int)).toNat = p.val
    rw [start0, window0, hp]; omega
  | ⟨1, _⟩ =>
    show ((slotDims A B H D E wf).start (ix3 t h e) idx 1 + ((slotDims A B H D E wf).window (ix3 t h e) 1 : Int)).toNat = q.val
    rw [start1, window1, hq]; omega
  | ⟨2, _⟩ =>
    show ((slotDims A B H D E wf).start (ix3 t h e) idx 2 + ((slotDims A B H D E wf).window (ix3 t h e) 2 : Int)).toNat = h.val
    rw [start2, window2]; omega
  | ⟨3, _⟩ =>
    show ((slotDims A B H D E wf).start (ix3 t h e) idx 3 + ((slotDims A B H D E wf).window (ix3 t h e) 3 : Int)).toNat = e.val
    rw [start3, window3]; omega

variable (x : (SOp A B H D).Idx → α) (idx : IVec (SIx E) w) (upd : (SUp E H D).Idx → α)
variable (p : Fin E → Fin A) (q : Fin E → Fin B)

/-- NO TILE HAS THE SLOT: the element keeps the operand's value. -/
theorem scatter_apply_of_no_slot
    (hp : ∀ t, (idx (ix2 t 0)).toInt = ((p t).val : Int)) (hq : ∀ t, (idx (ix2 t 1)).toInt = ((q t).val : Int))
    (a : Fin A) (b : Fin B) (h : Fin H) (e : Fin D) (hno : ∀ t, ¬ (p t = a ∧ q t = b)) :
    Host.scatter (slotDims A B H D E wf) (fun _ v => v) x idx upd (ix4 a b h e) = x (ix4 a b h e) := by
  refine Cert.Lib.ScatterSet.scatter_apply_of_forall_ne _ x idx upd _ (fun j hj => ?_)
  obtain ⟨t', h', e', rfl⟩ : ∃ (t' : Fin E) (h' : Fin H) (e' : Fin D), j = ix3 t' h' e' := ⟨j 0, j 1, j 2, eq_ix3 j⟩
  rw [resultIdx_eq wf t' h' e' idx (p t') (q t') (hp _) (hq _)] at hj
  have hj' := Option.some.inj hj
  exact hno t' ⟨congrFun hj' 0, congrFun hj' 1⟩

/-- THE LAST TILE WITH THE SLOT WINS: when tile `t` has slot `(a, b)` and no later tile does, element
    `(a, b, h, e)` of the result is element `(h, e)` of tile `t`. -/
theorem scatter_apply_of_last_slot
    (hp : ∀ t, (idx (ix2 t 0)).toInt = ((p t).val : Int)) (hq : ∀ t, (idx (ix2 t 1)).toInt = ((q t).val : Int))
    (a : Fin A) (b : Fin B) (h : Fin H) (e : Fin D) (t : Fin E) (ht : p t = a ∧ q t = b)
    (hlast : ∀ t', t < t' → ¬ (p t' = a ∧ q t' = b)) :
    Host.scatter (slotDims A B H D E wf) (fun _ v => v) x idx upd (ix4 a b h e) = upd (ix3 t h e) := by
  refine Cert.Lib.ScatterSet.scatter_apply_of_last _ x idx upd _ (ix3 t h e) ?_ (fun j' hlt hj => ?_)
  · rw [resultIdx_eq wf t h e idx (p t) (q t) (hp _) (hq _), ht.1, ht.2]
  · obtain ⟨t', h', e', rfl⟩ : ∃ (t' : Fin E) (h' : Fin H) (e' : Fin D), j' = ix3 t' h' e' :=
      ⟨j' 0, j' 1, j' 2, eq_ix3 j'⟩
    rw [resultIdx_eq wf t' h' e' idx (p t') (q t') (hp _) (hq _)] at hj
    have hj' := Option.some.inj hj
    have h0 : p t' = a := congrFun hj' 0
    have h1 : q t' = b := congrFun hj' 1
    have h2 : h' = h := congrFun hj' 2
    have h3 : e' = e := congrFun hj' 3
    subst h2 h3
    have hle : t'.val ≤ t.val := by
      by_contra hc
      exact hlast t' (by show t.val < t'.val; omega) ⟨h0, h1⟩
    have hlt' : ((SUp E H D).rowMajor (ix3 t h' e')).val < ((SUp E H D).rowMajor (ix3 t' h' e')).val := hlt
    have hr : ((SUp E H D).rowMajor (ix3 t h' e')).val = (t.val * H + h'.val) * D + e'.val := Shape.rowMajor_val_three _
    have hr' : ((SUp E H D).rowMajor (ix3 t' h' e')).val = (t'.val * H + h'.val) * D + e'.val :=
      Shape.rowMajor_val_three _
    have hm : (t'.val * H + h'.val) * D + e'.val ≤ (t.val * H + h'.val) * D + e'.val :=
      Nat.add_le_add_right (Nat.mul_le_mul_right D (Nat.add_le_add_right (Nat.mul_le_mul_right H hle) _)) _
    rw [hr, hr'] at hlt'
    omega

end Cert.Lib.ScatterSlots
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.RefSlots.lean ====
/-
  The reference's result, element by element.

  The reference wraps a negative index word by the axis extent (`select (w < 0) (w + n) w`), stacks the two index
  vectors as the columns of an `[8192, 2]` array and scatters the input's tiles into the cache at those slots. With both
  words of every token non-negative the wrap is the identity, so row `t` of the index array is `(bi[t], bo[t])`; the
  scatter is then the tile scatter read in the slot-scatter library module: the last token with a slot wins, and an
  element no token's slot reaches keeps the cache's value.
-/
import proofs.«132015_j35734127903093_1_alg».proof.Proof.Gen.ReferenceIdeal.Read
import proofs.«132015_j35734127903093_1_alg».proof.Proof.LibScatterSlots
import proofs.«132015_j35734127903093_1_alg».proof.Proof.LibConcat2
import Idealize.ShloMosaic.Lib.Affine

noncomputable section

namespace Cert.ReferenceIdeal.Slots

open Cert.ReferenceIdeal Cert.ReferenceIdeal.Gen Idealize.ShloMosaic Idealize.ShloMosaic.ValueIdx
open Cert.Lib.ScatterSlots

variable {F : FTy → Type} [FloatOps F]

/-- A non-negative word is not wrapped, whatever the wrapped value would be. -/
theorem select_nonneg (w v : BitVec 32) (h0 : 0 ≤ w.toInt) :
    Scalar.select (IntOp.cmpi .slt w 0#32) v w = w := by
  unfold Scalar.select
  rw [if_neg]
  intro hc
  have := IntOp.cmpi_slt.1 hc
  have z : (0#32 : BitVec 32).toInt = 0 := by decide
  omega

/-- Column 0 of the index array at row `t` is the block-index word of token `t`, -/
theorem idx_col0 (x2 x3 : IVec S8192 32) (t : Fin 8192) (h0 : 0 ≤ (x2 (ix1 t)).toInt) :
    Read.val_main_v12 (F := F) x2 x3 (ix2 t 0) = x2 (ix1 t) := by
  unfold Read.val_main_v12
  rw [Cert.LibConcat2.last2_left _ _ _ t 0 (by decide)]
  rw [Read.val_main_v10_apply, Read.val_main_v4_apply, Read.val_main_v1_apply, Read.val_main_v0_apply,
    Read.val_main_c_apply]
  have hi : Read.idx_main_v10 (ix2 t ⟨(0 : Fin 2).val, by decide⟩) = ix1 t := by
    funext a; match a with | ⟨0, _⟩ => rfl
  rw [hi]
  exact select_nonneg _ _ h0

/-- and column 1 its block-offset word. -/
theorem idx_col1 (x2 x3 : IVec S8192 32) (t : Fin 8192) (h0 : 0 ≤ (x3 (ix1 t)).toInt) :
    Read.val_main_v12 (F := F) x2 x3 (ix2 t 1) = x3 (ix1 t) := by
  unfold Read.val_main_v12
  rw [Cert.LibConcat2.last2_right _ _ _ t 1 (by decide) (by decide)]
  rw [Read.val_main_v11_apply, Read.val_main_v9_apply, Read.val_main_v6_apply, Read.val_main_v5_apply,
    Read.val_main_c_1_apply]
  have hi : Read.idx_main_v11 (ix2 t ⟨(1 : Fin 2).val - 1, by decide⟩) = ix1 t := by
    funext a; match a with | ⟨0, _⟩ => rfl
  rw [hi]
  exact select_nonneg _ _ h0

/-- The printed dimension numbers are the slot scatter's. -/
theorem dims_eq : scatter_S1024x128x8x128_S8192x2_S8192x8x128_12_01_01_1
    = slotDims 1024 128 8 128 8192 Facts₀.scatter_S1024x128x8x128_S8192x2_S8192x8x128_12_01_01_1_wf := rfl

variable (x0 : (⟨S8192x8x128, .f32⟩ : BufTy).Contents (Elt F)) (x1 : (⟨S1024x128x8x128, .f32⟩ : BufTy).Contents (Elt F))
variable (x2 x3 : IVec S8192 32) (p : Fin 8192 → Fin 1024) (q : Fin 8192 → Fin 128)

/-- THE REFERENCE'S RESULT where some token has the slot: the last such token's tile. -/
theorem result_of_last (hp : ∀ t, (x2 (ix1 t)).toInt = ((p t).val : Int)) (hq : ∀ t, (x3 (ix1 t)).toInt = ((q t).val : Int))
    (a : Fin 1024) (b : Fin 128) (h : Fin 8) (e : Fin 128) (t : Fin 8192) (ht : p t = a ∧ q t = b)
    (hlast : ∀ t', t < t' → ¬ (p t' = a ∧ q t' = b)) :
    Read.val_main_v13 (F := F) x0 x1 x2 x3 (ix4 a b h e) = x0 (ix3 t h e) := by
  unfold Read.val_main_v13
  rw [dims_eq]
  refine scatter_apply_of_last_slot _ x1 _ x0 p q (fun t => ?_) (fun t => ?_) a b h e t ht hlast
  · rw [idx_col0 x2 x3 t (by rw [hp]; omega)]; exact hp t
  · rw [idx_col1 x2 x3 t (by rw [hq]; omega)]; exact hq t

/-- THE REFERENCE'S RESULT where no token has the slot: the cache's element. -/
theorem result_of_none (hp : ∀ t, (x2 (ix1 t)).toInt = ((p t).val : Int)) (hq : ∀ t, (x3 (ix1 t)).toInt = ((q t).val : Int))
    (a : Fin 1024) (b : Fin 128) (h : Fin 8) (e : Fin 128) (hno : ∀ t, ¬ (p t = a ∧ q t = b)) :
    Read.val_main_v13 (F := F) x0 x1 x2 x3 (ix4 a b h e) = x1 (ix4 a b h e) := by
  unfold Read.val_main_v13
  rw [dims_eq]
  refine scatter_apply_of_no_slot _ x1 _ x0 p q (fun t => ?_) (fun t => ?_) a b h e hno
  · rw [idx_col0 x2 x3 t (by rw [hp]; omega)]; exact hp t
  · rw [idx_col1 x2 x3 t (by rw [hq]; omega)]; exact hq t

end Cert.ReferenceIdeal.Slots

end
-- ==== Proof.lean ====
/-
  The paged-cache scatter kernel against `cache.at[block_indices, block_offset].set(input)`.

  Both programs write tile `t` of the input, an `[8, 128]` array, over slot `(block_indices[t], block_offset[t])` of
  the `[1024, 128, 8, 128]` cache, token after token: the kernel one grid point per token, writing the slot's block back
  when the next point's slot differs; the reference as a left fold of its scatter over the updates in row-major
  order. When several tokens name one slot the later one overwrites the earlier in both, so element `(a, b, h, e)` of
  either result is element `(h, e)` of the LAST token whose slot is `(a, b)`, and the cache's own element when no
  token has that slot. No arithmetic is done on the values, so nothing depends on their being finite.

  The precondition asks, beside finite float inputs, that every block index is in `[0, 1024)` and every block
  offset in `[0, 128)`. That is what makes every block of the kernel's output window lie inside its array (the side
  condition its frame is stated under, for the word-level kernel and the idealized one alike), and under it the
  reference's wrap of negative indices is the identity and none of its updates is dropped.
-/
import proofs.«132015_j35734127903093_1_alg».proof.Defs
import proofs.«132015_j35734127903093_1_alg».proof.Proof.Gen.Kernel
import proofs.«132015_j35734127903093_1_alg».proof.Proof.Gen.Kernel.Skeleton
import proofs.«132015_j35734127903093_1_alg».proof.Proof.Gen.Kernel.Launch
import proofs.«132015_j35734127903093_1_alg».proof.Proof.Gen.Kernel.Points
import proofs.«132015_j35734127903093_1_alg».proof.Proof.Gen.Kernel.Frame
import proofs.«132015_j35734127903093_1_alg».proof.Proof.Gen.KernelIdeal
import proofs.«132015_j35734127903093_1_alg».proof.Proof.Gen.KernelIdeal.Skeleton
import proofs.«132015_j35734127903093_1_alg».proof.Proof.Gen.KernelIdeal.Launch
import proofs.«132015_j35734127903093_1_alg».proof.Proof.Gen.KernelIdeal.Points
import proofs.«132015_j35734127903093_1_alg».proof.Proof.Gen.KernelIdeal.Frame
import proofs.«132015_j35734127903093_1_alg».proof.Proof.Gen.ReferenceIdeal
import proofs.«132015_j35734127903093_1_alg».proof.Proof.Gen.ReferenceIdeal.Run
import proofs.«132015_j35734127903093_1_alg».proof.Proof.Gen.ReferenceIdeal.Read
import proofs.«132015_j35734127903093_1_alg».proof.Proof.Gen.Pre_finite_inputs
import proofs.«132015_j35734127903093_1_alg».proof.Proof.PreDecode
import proofs.«132015_j35734127903093_1_alg».proof.Proof.KernelOk
import proofs.«132015_j35734127903093_1_alg».proof.Proof.KernelIdealSlots
import proofs.«132015_j35734127903093_1_alg».proof.Proof.RefSlots
import Idealize.ShloMosaic.Adequacy
import Idealize.ShloMosaic.Init

noncomputable section

namespace Cert.Proof

open Idealize.ShloMosaic Idealize.SL.Sem Idealize.ShloMosaic.ValueIdx

/-- Among finitely many tokens, if some token has a property then some token is the LAST to have it. -/
theorem exists_last {n : Nat} (P : Fin n → Prop) [DecidablePred P] (h : ∃ t, P t) :
    ∃ t, P t ∧ ∀ t', t < t' → ¬ P t' := by
  have hne : (Finset.univ.filter P).Nonempty := by
    obtain ⟨t, ht⟩ := h
    exact ⟨t, Finset.mem_filter.mpr ⟨Finset.mem_univ _, ht⟩⟩
  refine ⟨(Finset.univ.filter P).max' hne, (Finset.mem_filter.mp (Finset.max'_mem _ hne)).2, fun t' hlt ht' => ?_⟩
  exact absurd hlt (not_lt.mpr (Finset.le_max' _ t' (Finset.mem_filter.mpr ⟨Finset.mem_univ _, ht'⟩)))

/-- The word-level kernel's frame: the precondition's in-range slots give the side condition of its tables. -/
theorem frame_kernel : Cert.frame_Kernel := fun m ρ h => by
  obtain ⟨p, q, hp, hq, -, -⟩ := Cert.PreDecode.slots_of_pre _ _ _ _ (h 0)
  exact Cert.Kernel.Gen.frame m ρ (Cert.Kernel.Slots.ok_of_slots m p q
    (fun t => by rw [Cert.Kernel.Slots.tbl0]; exact hp t) (fun t => by rw [Cert.Kernel.Slots.tbl1]; exact hq t))

/-- The idealized kernel's frame, in the same way. -/
theorem frame_kernelIdeal : Cert.frame_KernelIdeal := fun m ρ h => by
  obtain ⟨p, q, hp, hq, -, -⟩ := Cert.PreDecode.slots_of_pre _ _ _ _ (h 0)
  exact Cert.KernelIdeal.Gen.frame m ρ (Cert.KernelIdeal.Slots.ok_of_slots m p q
    (fun t => by rw [Cert.KernelIdeal.Slots.tbl0]; exact hp t) (fun t => by rw [Cert.KernelIdeal.Slots.tbl1]; exact hq t))

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two results are one array: both hold, at `(a, b, h, e)`, the last token's tile with slot `(a, b)` at
    `(h, e)`, or the cache's element when there is no such token. The reference is read at arrays equal to the
    kernel's arguments. -/
theorem results_eq (m : (ℓ : Loc Cert.KernelIdeal.nD Cert.KernelIdeal.τ Cert.KernelIdeal.sig) → Buf (Elt Ideal) ℓ)
    (hO : Cert.KernelIdeal.Gen.Ok m) (p : Fin 8192 → Fin 1024) (q : Fin 8192 → Fin 128)
    (hp' : ∀ t, (Cert.KernelIdeal.Gen.tbl m 0 (ix1 t)).toNat = (p t).val)
    (hq' : ∀ t, (Cert.KernelIdeal.Gen.tbl m 1 (ix1 t)).toNat = (q t).val)
    (x0 : (⟨Cert.ReferenceIdeal.S8192x8x128, .f32⟩ : BufTy).Contents (Elt Ideal))
    (x1 : (⟨Cert.ReferenceIdeal.S1024x128x8x128, .f32⟩ : BufTy).Contents (Elt Ideal))
    (x2 x3 : IVec Cert.ReferenceIdeal.S8192 32)
    (e0 : x0 = m (((0 : Dev Cert.KernelIdeal.nD).tc : Thread Cert.KernelIdeal.nD Cert.KernelIdeal.τ).loc Cert.KernelIdeal.main_arg0))
    (e1 : x1 = m (((0 : Dev Cert.KernelIdeal.nD).tc : Thread Cert.KernelIdeal.nD Cert.KernelIdeal.τ).loc Cert.KernelIdeal.main_arg1))
    (hpI : ∀ t, (x2 (ix1 t)).toInt = ((p t).val : Int)) (hqI : ∀ t, (x3 (ix1 t)).toInt = ((q t).val : Int)) :
    Cert.ReferenceIdeal.Read.val_main_v13 (F := Ideal) x0 x1 x2 x3
      = (Cert.KernelIdeal.Gen.dats m hO 0 0).arrAt 1 (Cert.KernelIdeal.Gen.cfgM m hO).N := by
  subst e0 e1
  funext i
  obtain ⟨a, b, h, e, rfl⟩ : ∃ (a : Fin 1024) (b : Fin 128) (h : Fin 8) (e : Fin 128), i = ix4 a b h e :=
    ⟨i 0, i 1, i 2, i 3, eq_ix4 i⟩
  by_cases hex : ∃ t, p t = a ∧ q t = b
  · obtain ⟨t, ht, hlast⟩ := exists_last (fun t => p t = a ∧ q t = b) hex
    rw [Cert.ReferenceIdeal.Slots.result_of_last _ _ _ _ p q hpI hqI a b h e t ht hlast]
    exact (Cert.KernelIdeal.Slots.final_of_last m p q hp' hq' hO 0 a b h e t ht hlast).symm
  · have hno : ∀ t, ¬ (p t = a ∧ q t = b) := fun t ht => hex ⟨t, ht⟩
    rw [Cert.ReferenceIdeal.Slots.result_of_none _ _ _ _ p q hpI hqI a b h e hno]
    exact (Cert.KernelIdeal.Slots.final_of_none m p q hp' hq' hO 0 a b h e hno).symm

/-- Both runs end, from memories agreeing on the arguments, with that one array. -/
theorem algebraic : Cert.algebraic_KernelIdeal_ReferenceIdeal := by
  intro m ρ m' ρ' hpre hagree
  obtain ⟨p, q, hp, hq, hpI, hqI⟩ := Cert.PreDecode.slots_of_pre _ _ _ _ (hpre 0)
  have hp' : ∀ t, (Cert.KernelIdeal.Gen.tbl m 0 (ix1 t)).toNat = (p t).val := fun t => by
    rw [Cert.KernelIdeal.Slots.tbl0]; exact hp t
  have hq' : ∀ t, (Cert.KernelIdeal.Gen.tbl m 1 (ix1 t)).toNat = (q t).val := fun t => by
    rw [Cert.KernelIdeal.Slots.tbl1]; exact hq t
  have hO := Cert.KernelIdeal.Slots.ok_of_slots m p q hp' hq'
  refine ⟨fun c => (Cert.KernelIdeal.Gen.dats m hO 0 c).arrAt 1 (Cert.KernelIdeal.Gen.cfgM m hO).N,
    Cert.KernelIdeal.Slots.run m ρ hO, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  exact results_eq m hO p q hp' hq' _ _ _ _ (hagree 0).1 (hagree 0).2.1
    (fun t => by rw [(hagree 0).2.2.1]; exact hpI t) (fun t => by rw [(hagree 0).2.2.2]; exact hqI t)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
